-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S1600000x1 : Shape := ⟨2, ![1600000, 1]⟩
abbrev S1x64 : Shape := ⟨2, ![1, 64]⟩
abbrev S64 : Shape := ⟨1, ![64]⟩
abbrev S64x64 : Shape := ⟨2, ![64, 64]⟩
abbrev S_ : Shape := ⟨0, ![]⟩

class Facts : Prop where
  bcast_S_S1600000x1 : S_.BroadcastsInDim S1600000x1 (![] : Fin 0 → Fin S1600000x1.rank)
  reducesTo_S1600000x1_S_d0_1 : S1600000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : IVec S2x1600000 32) (main_arg1 : FVec F S1600000x1 .f32) (main_arg2 : FVec F S1x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S1600000x1 .f32 := Host.absf main_arg1
  let main_cst : FVec F S_ .f32 := constant S_ .f32 0x7F800000#32
  let main_v1 : FVec F S1600000x1 .f32 := broadcastInDim S1600000x1 ![] bcast_S_S1600000x1 main_cst
  let main_v2 : IVec S1600000x1 1 := cmpf .olt main_v0 main_v1
  let main_c : IVec S_ 1 := constantI S_ 1 1#1
  let main_v3 : IVec S_ 1 := (fun x v => Host.reduce IntOp.andi x v reducesTo_S1600000x1_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S2x1600000 : Shape := ⟨2, ![2, 1600000]⟩
abbrev S1600000x1 : Shape := ⟨2, ![1600000, 1]⟩
abbrev S1x64 : Shape := ⟨2, ![1, 64]⟩
abbrev S64 : Shape := ⟨1, ![64]⟩
abbrev S64x64 : Shape := ⟨2, ![64, 64]⟩
abbrev S1600000x64 : Shape := ⟨2, ![1600000, 64]⟩
abbrev S8000x1 : Shape := ⟨2, ![8000, 1]⟩
abbrev S8000x64 : Shape := ⟨2, ![8000, 64]⟩
abbrev S1x1600000 : Shape := ⟨2, ![1, 1600000]⟩
abbrev S1600000 : Shape := ⟨1, ![1600000]⟩
abbrev S_ : Shape := ⟨0, ![]⟩
abbrev S100000x64 : Shape := ⟨2, ![100000, 64]⟩
abbrev S10000x64 : Shape := ⟨2, ![10000, 64]⟩

abbrev nBuf : Space → Nat
  | .hbm => 22
  | .vmem => 16
  | .smem => 0
  | _ => 0

abbrev bufTy : (tb : Table) → Fin (tcTables nBuf tb) → BufTy
  | .hbm, ⟨0, _⟩ => ⟨S2x1600000, .i32⟩
  | .hbm, ⟨1, _⟩ => ⟨S1600000x1, .f32⟩
  | .hbm, ⟨2, _⟩ => ⟨S1x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1x64, .f32⟩
  | .hbm, ⟨11, _⟩ => ⟨S1x64, .f32⟩
  | .hbm, ⟨12, _⟩ => ⟨S1600000x64, .f32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | .hbm, ⟨19, _⟩ => ⟨S1x64, .f32⟩
  | .hbm, ⟨20, _⟩ => ⟨S1x64, .f32⟩
  | .hbm, ⟨21, _⟩ => ⟨S100000x64, .f32⟩
  | .local _ .vmem, ⟨0, _⟩ => ⟨S8000x1, .f32⟩
  | .local _ .vmem, ⟨1, _⟩ => ⟨S8000x1, .f32⟩
  | .local _ .vmem, ⟨2, _⟩ => ⟨S1x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S64_S1x64 : S64.ShapeCasts S1x64
  inb_S8000x1_S8000x1_0_0 : ∀ a, (![0, 0] : Fin 2 → Nat) a + S8000x1.size a ≤ S8000x1.size a
  h_S8000x1 : 0 < S8000x1.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S8000x1_S8000x64 : S8000x1.Broadcasts S8000x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S8000x64_S8000x64_0_0 : ∀ a, (![0, 0] : Fin 2 → Nat) a + S8000x64.size a ≤ S8000x64.size a
  h_S8000x64 : 0 < S8000x64.numel
  slices_S2x1600000_S1x1600000_0_0 : S2x1600000.Slices ![0, 0] S1x1600000
  shapeCasts_S1x1600000_S1600000 : S1x1600000.ShapeCasts S1600000
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  dot_S8000x64_S64x64_S8000x64_1_0_0_1_n_n_wf : DotDims.WF S8000x64 S64x64 S8000x64 [1] [0] [0] [1] [] []
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S1600000x1.size a
  hwx0_0 : ∀ i : grid0.Coords, EltTy.bits .f32 = 32 ∨ (Rect.block (s := S1600000x1) S8000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S1600000x64.size a
  hwx0_5 : ∀ i : grid0.Coords, EltTy.bits .f32 = 32 ∨ (Rect.block (s := S1600000x64) S8000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg1) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x1600000 : Shape := ⟨2, ![2, 1600000]⟩
abbrev S1600000x1 : Shape := ⟨2, ![1600000, 1]⟩
abbrev S1x64 : Shape := ⟨2, ![1, 64]⟩
abbrev S64 : Shape := ⟨1, ![64]⟩
abbrev S64x64 : Shape := ⟨2, ![64, 64]⟩
abbrev S1600000x64 : Shape := ⟨2, ![1600000, 64]⟩
abbrev S_ : Shape := ⟨0, ![]⟩
abbrev S1x1600000 : Shape := ⟨2, ![1, 1600000]⟩
abbrev S1600000 : Shape := ⟨1, ![1600000]⟩
abbrev S100000x64 : Shape := ⟨2, ![100000, 64]⟩

abbrev nBuf : Space → Nat
  | .hbm => 59
  | .vmem => 0
  | .smem => 0
  | _ => 0

abbrev bufTy : (tb : Table) → Fin (tcTables nBuf tb) → BufTy
  | .hbm, ⟨0, _⟩ => ⟨S2x1600000, .i32⟩
  | .hbm, ⟨1, _⟩ => ⟨S1600000x1, .f32⟩
  | .hbm, ⟨2, _⟩ => ⟨S1x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1600000x64, .f32⟩
  | .hbm, ⟨11, _⟩ => ⟨S1x64, .f32⟩
  | .hbm, ⟨12, _⟩ => ⟨S1600000x64, .f32⟩
  | .hbm, ⟨13, _⟩ => ⟨S1600000x64, .f32⟩
  | .hbm, ⟨14, _⟩ => ⟨S1600000x64, .f32⟩
  | .hbm, ⟨15, _⟩ => ⟨S1600000x64, .f32⟩
  | .hbm, ⟨16, _⟩ => ⟨S_, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S1600000x64, .f32⟩
  | .hbm, ⟨21, _⟩ => ⟨S1600000x64, .f32⟩
  | .hbm, ⟨22, _⟩ => ⟨S1600000x64, .f32⟩
  | .hbm, ⟨23, _⟩ => ⟨S1600000x64, .f32⟩
  | .hbm, ⟨24, _⟩ => ⟨S1x64, .f32⟩
  | .hbm, ⟨25, _⟩ => ⟨S1600000x64, .f32⟩
  | .hbm, ⟨26, _⟩ => ⟨S1600000x64, .f32⟩
  | .hbm, ⟨27, _⟩ => ⟨S1600000x64, .f32⟩
  | .hbm, ⟨28, _⟩ => ⟨S1600000x64, .f32⟩
  | .hbm, ⟨29, _⟩ => ⟨S_, .f32⟩
  | .hbm, ⟨30, _⟩ => ⟨S1600000x64, .f32⟩
  | .hbm, ⟨31, _⟩ => ⟨S1600000x64, .f32⟩
  | .hbm, ⟨32, _⟩ => ⟨S_, .f32⟩
  | .hbm, ⟨33, _⟩ => ⟨S1600000x64, .f32⟩
  | .hbm, ⟨34, _⟩ => ⟨S1600000x64, .f32⟩
  | .hbm, ⟨35, _⟩ => ⟨S1600000x64, .f32⟩
  | .hbm, ⟨36, _⟩ => ⟨S1x1600000, .i32⟩
  | .hbm, ⟨37, _⟩ => ⟨S1600000, .i32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S100000x64, .f32⟩
  | .hbm, ⟨50, _⟩ => ⟨S100000x64, .f32⟩
  | .hbm, ⟨51, _⟩ => ⟨S_, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_call2_v0 : Ref sig .tc := ⟨.hbm, 46, rfl⟩
abbrev main_call2_v1 : Ref sig .tc := ⟨.hbm, 47, rfl⟩
abbrev main_call2_cst : Ref sig .tc := ⟨.hbm, 48, rfl⟩
abbrev main_call2_v2 : Ref sig .tc := ⟨.hbm, 49, rfl⟩
abbrev main_call2_v3 : Ref sig .tc := ⟨.hbm, 50, rfl⟩
abbrev main_call2_cst_0 : Ref sig .tc := ⟨.hbm, 51, rfl⟩
abbrev main_call2_v4 : Ref sig .tc := ⟨.hbm, 52, rfl⟩
abbrev main_call2_v5 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  slices_S2x1600000_S1x1600000_0_0 : S2x1600000.Slices ![0, 0] S1x1600000
  shapeCasts_S1x1600000_S1600000 : S1x1600000.ShapeCasts S1600000
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  bcast_S1x64_S100000x64_0_1 : S1x64.BroadcastsInDim S100000x64 (![0, 1] : Fin 2 → Fin S100000x64.rank)
  dot_S1600000x1_S1x64_S1600000x64_1_0_0_1_n_n_wf : DotDims.WF S1600000x1 S1x64 S1600000x64 [1] [0] [0] [1] [] []
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def dot_S1600000x1_S1x64_S1600000x64_1_0_0_1_n_n : DotDims S1600000x1 S1x64 S1600000x64 where
  lhsContracting := [1]
  rhsContracting := [0]
  lhsNonContracting := [0]
  rhsNonContracting := [1]
  lhsBatch := []
  rhsBatch := []
  wf := dot_S1600000x1_S1x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KerRun.lean ====
/-
  The idealized kernel's run with its result named.

  The program is two kernel regions among host operations. Its buffers at each boundary are a fold from the launch
  memory: the first host stretch, the edge region's write-backs, the second host stretch (which holds the
  scatter-add), the node region's write-backs. Every weakly fair execution terminates in a state whose unscoped
  buffers hold the last fold; here that is read at the result buffer as well as at the arguments.
-/
import proofs.«118618_j34505767256114_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the
    arguments as launched. -/
theorem run_named : θ_run defs (onTc (τ := τ) (main (F := F))) ⟨m, fun _ => 0, ρ⟩ (fun r => ∀ c : Dev nD,
      r.2.mem ((c.tc : Thread nD τ).loc main_v10) = W4 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v10 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.ValueRun

end
-- ==== Proof.Spec.lean ====
/-
  The mathematics both programs compute, over the extended reals.

  SiLU is `x · 1/(1 + e^(-x))`. An edge's feature row (64 numbers) is a two-layer perceptron of the edge's one
  attribute `a`: the first layer is the affine map `k ↦ a · w1 k + b1 k` followed by SiLU, the second the matrix
  `w2` applied to that row plus `b2`, followed by SiLU again. A node's output row is a perceptron of its aggregated
  row `g`: `g · w3 + b3`, SiLU, then `· w4 + b4` with no activation at the end. The two array-level functions read
  a whole array row by row: entry `(r, j)` depends on row `r` of the data array only.
-/
import Idealize.ShloMosaic.PureOps.Ideal
import Idealize.ShloMosaic.Lib.ValueIdx

noncomputable section

namespace Cert.GnnSpec

open Idealize.ShloMosaic Idealize.ShloMosaic.ValueIdx
open scoped BigOperators

/-- SiLU on the extended reals: `x · 1/(1 + e^(-x))`. -/
def silu (x : EReal) : EReal := x * Ideal.logistic x

/-- Column `j` of an edge's feature row, from the edge's attribute `a`. -/
def edgeRow (a : EReal) (w1 b1 : Fin 64 → EReal) (w2 : Fin 64 → Fin 64 → EReal) (b2 : Fin 64 → EReal) (j : Fin 64) : EReal :=
  silu ((∑ k : Fin 64, silu (a * w1 k + b1 k) * w2 k j) + b2 j)

/-- Column `j` of a node's output row, from the node's aggregated row `g`. -/
def nodeRow (g : Fin 64 → EReal) (w3 : Fin 64 → Fin 64 → EReal) (b3 : Fin 64 → EReal) (w4 : Fin 64 → Fin 64 → EReal)
    (b4 : Fin 64 → EReal) (j : Fin 64) : EReal :=
  (∑ k : Fin 64, silu ((∑ l : Fin 64, g l * w3 l k) + b3 k) * w4 k j) + b4 j

/-- The edge features of all `E` edges: entry `(r, j)` is column `j` of edge `r`'s row. -/
def edgeArr {E : ℕ} (ea : (⟨2, ![E, 1]⟩ : Shape).Idx → EReal) (w1 b1 : Fin 64 → EReal) (w2 : Fin 64 → Fin 64 → EReal)
    (b2 : Fin 64 → EReal) : (⟨2, ![E, 64]⟩ : Shape).Idx → EReal :=
  fun i => edgeRow (ea (ix2 (i 0) (0 : Fin 1))) w1 b1 w2 b2 (i 1)

/-- The outputs of all `N` nodes: entry `(r, j)` is column `j` of node `r`'s row, from row `r` of `agg`. -/
def nodeArr {N : ℕ} (agg : (⟨2, ![N, 64]⟩ : Shape).Idx → EReal) (w3 : Fin 64 → Fin 64 → EReal) (b3 : Fin 64 → EReal)
    (w4 : Fin 64 → Fin 64 → EReal) (b4 : Fin 64 → EReal) : (⟨2, ![N, 64]⟩ : Shape).Idx → EReal :=
  fun i => nodeRow (fun l => agg (ix2 (i 0) l)) w3 b3 w4 b4 (i 1)

theorem edgeArr_ix2 {E : ℕ} (ea : (⟨2, ![E, 1]⟩ : Shape).Idx → EReal) (w1 b1 : Fin 64 → EReal) (w2 : Fin 64 → Fin 64 → EReal)
    (b2 : Fin 64 → EReal) (r : Fin E) (j : Fin 64) :
    edgeArr ea w1 b1 w2 b2 (ix2 r j) = edgeRow (ea (ix2 r (0 : Fin 1))) w1 b1 w2 b2 j := rfl

theorem nodeArr_ix2 {N : ℕ} (agg : (⟨2, ![N, 64]⟩ : Shape).Idx → EReal) (w3 : Fin 64 → Fin 64 → EReal) (b3 : Fin 64 → EReal)
    (w4 : Fin 64 → Fin 64 → EReal) (b4 : Fin 64 → EReal) (r : Fin N) (j : Fin 64) :
    nodeArr agg w3 b3 w4 b4 (ix2 r j) = nodeRow (fun l => agg (ix2 r l)) w3 b3 w4 b4 j := rfl

end Cert.GnnSpec

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.LibAxisReads.lean ====
/-
  Layout and reduction operations of rank-2 arrays read at an index given by coordinates, at the ideal values.

  * A vector `[a]` cast to a column `[a, 1]` reads, at `(i, u)`, the vector at `i`: both have row-major
    position `i` because the unit coordinate `u` is 0.
  * A column `[a, 1]` broadcast over `[a, b]` reads, at `(p, c)`, the column at `(p, 0)`.
  * For a reduction of a rank-2 array along one axis, the source index over the result index `r` with
    coordinate `k` on the reduced axis is `(r, k)` (axis 1) or `(k, r)` (axis 0).  So a sum along an axis is
    the sum over that axis's coordinates, and a minimum along an axis is the fold of `min`, from the value of
    the starting word, over that axis's coordinates.
-/
import Idealize.ShloMosaic.Lib.ValueIdx
import Idealize.ShloMosaic.Lib.Pipeline.Value
import Idealize.ShloMosaic.Lib.ValueLayout
import Idealize.ShloMosaic.PureOps.Ideal.Laws

/-!
# Unit-axis columns and one-axis reductions of rank-2 arrays, read at an index

General lemmas in the style of the library's layout lemmas: the cast of a vector to a column, the broadcast of
a column over a matrix, and a sum or a minimum of a matrix along one axis, each read at an index written by
its coordinates.
-/

noncomputable section

open scoped BigOperators

namespace Cert.Lib.AxisReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing a matrix along axis 1: the source index over row `r` with column `k` is `(r, k)`. -/
theorem lift_axis1 {n0 n1 : ℕ} (h : (⟨2, ![n0, n1]⟩ : Shape).Reduces [1] ⟨1, ![n0]⟩) (r : Fin n0) (k : Fin n1) :
    h.lift (ix1 r) k = ix2 r k := by
  funext c
  match c with
  | ⟨0, _⟩ => rfl
  | ⟨1, _⟩ => rfl

/-- Reducing a matrix along axis 0: the source index over column `q` with row `k` is `(k, q)`. -/
theorem lift_axis0 {n0 n1 : ℕ} (h : (⟨2, ![n0, n1]⟩ : Shape).Reduces [0] ⟨1, ![n1]⟩) (q : Fin n1) (k : Fin n0) :
    h.lift (ix1 q) k = ix2 k q := by
  funext c
  match c with
  | ⟨0, _⟩ => rfl
  | ⟨1, _⟩ => rfl

/-- A sum of a matrix along axis 1, at the ideal values, read at row `r`: the sum of the row. -/
theorem add_axis1_apply {n0 n1 : ℕ} {φ : FTy} (src : FVec Ideal ⟨2, ![n0, n1]⟩ φ) (acc : BitVec φ.bits)
    (h : (⟨2, ![n0, n1]⟩ : Shape).Reduces [1] ⟨1, ![n0]⟩) (hφ : FKind.Formats φ)
    (hacc : acc = FKind.add.neutral φ hφ) (r : Fin n0) :
    multiReduction .add [1] ⟨1, ![n0]⟩ src acc h hφ hacc (ix1 r) = ∑ d : Fin n1, src (ix2 r d) :=
  (Ideal.multiReduction_add_single src acc h hφ hacc (ix1 r)).trans
    (Finset.sum_congr rfl fun d _ => congrArg src (lift_axis1 h r d))

/-- A sum of a matrix along axis 0, at the ideal values, read at column `q`: the sum of the column. -/
theorem add_axis0_apply {n0 n1 : ℕ} {φ : FTy} (src : FVec Ideal ⟨2, ![n0, n1]⟩ φ) (acc : BitVec φ.bits)
    (h : (⟨2, ![n0, n1]⟩ : Shape).Reduces [0] ⟨1, ![n1]⟩) (hφ : FKind.Formats φ)
    (hacc : acc = FKind.add.neutral φ hφ) (q : Fin n1) :
    multiReduction .add [0] ⟨1, ![n1]⟩ src acc h hφ hacc (ix1 q) = ∑ d : Fin n0, src (ix2 d q) :=
  (Ideal.multiReduction_add_single src acc h hφ hacc (ix1 q)).trans
    (Finset.sum_congr rfl fun d _ => congrArg src (lift_axis0 h q d))

/-- A minimum over ONE axis, at the ideal values: the fold of `min` from the starting word's value over that
axis's coordinates (the twin of the library's law for a maximum). -/
theorem multiReduction_minimumf_single {s t : Shape} {a : Fin s.rank} {φ : FTy} (src : FVec Ideal s φ)
    (acc : BitVec φ.bits) (h : s.Reduces [a] t) (hφ : FKind.Formats φ)
    (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A minimum of a matrix along axis 1, read at row `r`: the fold of `min` over the row. -/
theorem min_axis1_apply {n0 n1 : ℕ} {φ : FTy} (src : FVec Ideal ⟨2, ![n0, n1]⟩ φ) (acc : BitVec φ.bits)
    (h : (⟨2, ![n0, n1]⟩ : Shape).Reduces [1] ⟨1, ![n0]⟩) (hφ : FKind.Formats φ)
    (hacc : acc = FKind.minimumf.neutral φ hφ) (r : Fin n0) :
    multiReduction .minimumf [1] ⟨1, ![n0]⟩ src acc h hφ hacc (ix1 r)
      = (Finset.univ : Finset (Fin n1)).fold min (Ideal.ofBits φ acc) (fun d => src (ix2 r d)) :=
  (multiReduction_minimumf_single src acc h hφ hacc (ix1 r)).trans
    (Finset.fold_congr fun d _ => congrArg src (lift_axis1 h r d))

/-- A minimum of a matrix along axis 0, read at column `q`: the fold of `min` over the column. -/
theorem min_axis0_apply {n0 n1 : ℕ} {φ : FTy} (src : FVec Ideal ⟨2, ![n0, n1]⟩ φ) (acc : BitVec φ.bits)
    (h : (⟨2, ![n0, n1]⟩ : Shape).Reduces [0] ⟨1, ![n1]⟩) (hφ : FKind.Formats φ)
    (hacc : acc = FKind.minimumf.neutral φ hφ) (q : Fin n1) :
    multiReduction .minimumf [0] ⟨1, ![n1]⟩ src acc h hφ hacc (ix1 q)
      = (Finset.univ : Finset (Fin n0)).fold min (Ideal.ofBits φ acc) (fun d => src (ix2 d q)) :=
  (multiReduction_minimumf_single src acc h hφ hacc (ix1 q)).trans
    (Finset.fold_congr fun d _ => congrArg src (lift_axis0 h q d))

end Cert.Lib.AxisReads

end
-- ==== Proof.KerEdge.lean ====
/-
  The edge kernel's body at one entry of its output block.

  The body loads a block of 8000 edge attributes (one column), the first layer's weight row and bias row, the second
  layer's 64×64 matrix and bias row, and stores one value: SiLU of (SiLU of the first layer's affine map, times the
  matrix, plus the bias). Read at row `p`, column `q` of the block, that is the edge-row function of the attribute
  in row `p`: the two row operands are spread over the 8000 rows and the one-column attribute block over the 64
  lanes, the change of float format before the matrix product is the identity on the extended reals, and the
  product into a zero accumulator is the plain sum over the contracted coordinate.
-/
import proofs.«118618_j34505767256114_1_alg».proof.Proof.Gen.KernelIdeal.Skeleton
import proofs.«118618_j34505767256114_1_alg».proof.Proof.Spec
import proofs.«118618_j34505767256114_1_alg».proof.Proof.LibMatmul2
import proofs.«118618_j34505767256114_1_alg».proof.Proof.LibAxisReads
import Idealize.ShloMosaic.Lib.ValueLayout
import Idealize.ShloMosaic.PureOps.Ideal.Laws

noncomputable section

namespace Cert.KernelIdeal.EdgeBody

open Idealize.ShloMosaic Idealize.ShloMosaic.ValueIdx Cert.KernelIdeal Cert.KernelIdeal.Facts₀ Cert.GnnSpec
open scoped BigOperators

/-- `v · logistic v`, lane by lane, is SiLU of the lane. -/
theorem mul_logistic_apply {s : Shape} (y : FVec Ideal s .f32) (i : s.Idx) : mulf y (logistic y) i = silu (y i) := rfl

/-- The first layer before its activation, at row `p` and lane `k`: attribute times weight plus bias. -/
theorem layer1_apply (x0 : Vec Ideal S8000x1 .f32) (x1 x2 : Vec Ideal S1x64 .f32) (p : Fin 8000) (k : Fin 64) :
    addf (F := Ideal) (φ := .f32) (mulf (F := Ideal) (φ := .f32) (broadcastTo S8000x64 x0 broadcasts_S8000x1_S8000x64) (broadcastTo S8000x64 x1 broadcasts_S1x64_S8000x64))
        (broadcastTo S8000x64 (shapeCast S1x64 x2 shapeCasts_S1x64_S1x64) broadcasts_S1x64_S8000x64) (ix2 p k)
      = x0 (ix2 p (0 : Fin 1)) * x1 (ix2 (0 : Fin 1) k) + x2 (ix2 (0 : Fin 1) k) := by
  rw [shapeCast_self]
  show broadcastTo S8000x64 x0 broadcasts_S8000x1_S8000x64 (ix2 p k) * broadcastTo S8000x64 x1 broadcasts_S1x64_S8000x64 (ix2 p k)
      + broadcastTo S8000x64 x2 broadcasts_S1x64_S8000x64 (ix2 p k) = _
  rw [Cert.Lib.AxisReads.broadcastTo_a1_ab_apply, broadcastTo_1b_ab_apply, broadcastTo_1b_ab_apply]

/-- The 8000×64 by 64×64 product into a zero accumulator, at an entry. -/
theorem matmul_apply (A : FVec Ideal S8000x64 .bf16) (B : FVec Ideal S64x64 .bf16) (p : Fin 8000) (q : Fin 64) :
    matmul dot_S8000x64_S64x64_S8000x64_1_0_0_1_n_n none A B (constant (F := Ideal) S8000x64 .f32 0x00000000#32) (ix2 p q)
      = ∑ k : Fin 64, A (ix2 p k) * B (ix2 k q) :=
  LibMatmul2.matmul_nn_apply dot_S8000x64_S64x64_S8000x64_1_0_0_1_n_n_wf none A B p q

/-- The stored value at row `p`, column `q` of the block is the edge-row function of the attribute in row `p`. -/
theorem payload_apply (x0 : Vec Ideal S8000x1 .f32) (x1 x2 : Vec Ideal S1x64 .f32) (x3 : Vec Ideal S64x64 .f32)
    (x4 : Vec Ideal S1x64 .f32) (p : Fin 8000) (q : Fin 64) :
    Gen.k0_pay1 (F := Ideal) x0 x1 x2 x3 x4 (ix2 p q)
      = edgeRow (x0 (ix2 p (0 : Fin 1))) (fun k => x1 (ix2 (0 : Fin 1) k)) (fun k => x2 (ix2 (0 : Fin 1) k))
          (fun k j => x3 (ix2 k j)) (fun k => x4 (ix2 (0 : Fin 1) k)) q := by
  unfold Gen.k0_pay1
  refine (mul_logistic_apply _ _).trans ?_
  unfold edgeRow
  refine congrArg silu ?_
  refine congrArg₂ (· + ·) ?_ ?_
  · refine (matmul_apply _ _ p q).trans (Finset.sum_congr rfl fun k _ => ?_)
    refine congrArg₂ (· * ·) ?_ rfl
    exact (mul_logistic_apply _ _).trans (congrArg silu (layer1_apply x0 x1 x2 p k))
  · rw [shapeCast_self]
    exact broadcastTo_1b_ab_apply x4 broadcasts_S1x64_S8000x64 p q

end Cert.KernelIdeal.EdgeBody

end
-- ==== Proof.KerEdgeArr.lean ====
/-
  The edge kernel's output array after its region, for any contents the region is entered with.

  The grid has 200 points; point `t` reads rows `8000·t … 8000·t + 7999` of the attribute array and the whole of the
  four small operands, and writes back rows `8000·t … 8000·t + 7999` of the output. Entry `(r, j)` of what it writes
  depends on row `r` of the attribute array only, so every block is the restriction of ONE function of the operand
  arrays, the edge array function; the 200 blocks tile the 1600000 rows, so the array ends holding that function.
-/
import proofs.«118618_j34505767256114_1_alg».proof.Proof.Gen.KernelIdeal.Frame
import proofs.«118618_j34505767256114_1_alg».proof.Proof.KerEdge
import Idealize.ShloMosaic.Lib.Pipeline.Value

set_option maxRecDepth 16384

noncomputable section

namespace Cert.KernelIdeal.EdgeArray

open Idealize.ShloMosaic Idealize.ShloMosaic.TcCoe Idealize.ShloMosaic.ValueIdx Idealize.SL.Sem
open Idealize.ShloMosaic.Pipeline (Dat Cfg Window)
open Cert.KernelIdeal Cert.GnnSpec

variable (V : (c : Dev nD) → (b : Ref sig .tc) → Buf (Elt Ideal) ((c : Thread nD τ).loc b))

theorem zeros2 : (![0, 0] : Fin 2 → Nat) = fun _ => 0 := funext fun a => by fin_cases a <;> rfl

/-- The edge array function of the operand arrays as the region finds them. -/
abbrev target (c : Dev nD) : S1600000x64.Idx → Elt Ideal .f32 :=
  edgeArr (V c main_arg1) (fun k => V c main_arg2 (ix2 (0 : Fin 1) k)) (fun k => V c main_v0 (ix2 (0 : Fin 1) k))
    (fun k j => V c main_arg4 (ix2 k j)) (fun k => V c main_v1 (ix2 (0 : Fin 1) k))

/-- The printed index maps over the grid: the attribute block and the output block of point `t` are block `t` along
    the rows, every other operand is its whole array. -/
theorem index_facts : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The body's stored value at an index of the block, over any loaded blocks. -/
theorem body_apply (x0 : Vec Ideal S8000x1 .f32) (x1 x2 : Vec Ideal S1x64 .f32) (x3 : Vec Ideal S64x64 .f32)
    (x4 : Vec Ideal S1x64 .f32) (j : S8000x64.Idx) :
    Gen.k0_pay1 (F := Ideal) x0 x1 x2 x3 x4 j
      = edgeRow (x0 (ix2 (j 0) (0 : Fin 1))) (fun k => x1 (ix2 (0 : Fin 1) k)) (fun k => x2 (ix2 (0 : Fin 1) k))
          (fun k j => x3 (ix2 k j)) (fun k => x4 (ix2 (0 : Fin 1) k)) (j 1) :=
  (congrArg (Gen.k0_pay1 (F := Ideal) x0 x1 x2 x3 x4) (eq_ix2 j)).trans
    (Cert.KernelIdeal.EdgeBody.payload_apply x0 x1 x2 x3 x4 (j 0) (j 1))

/-- What point `t` writes back is block `t` of the edge array function. -/
theorem flushed_eq (c : Dev nD) (t : Fin cfg0.N) :
    (Gen.dat0 (F := Ideal) V c).flushed 5 t = ((cfg0.win 5).blk t).view.read (Elt Ideal) (target V c) := by
  show (cfg0.win 5).cut (grid0.coords t) ((Gen.dat0 (F := Ideal) V c).after 5 t) = _
  rw [Gen.after0_5]
  unfold Gen.out0_5
  rw [View.canon_unit_zero zeros2]
  simp only [View.ld_unit_zero (S := S8000x1) zeros2, View.ld_unit_zero (S := S1x64) zeros2, View.ld_unit_zero (S := S64x64) zeros2]
  obtain ⟨e50, e51, e00, e01, e10, e11, e20, e21, e30, e31, e40, e41⟩ := index_facts t
  funext j
  show Gen.k0_pay1 (F := Ideal) (Gen.iblk0 V c 0 t) (Gen.iblk0 V c 1 t) (Gen.iblk0 V c 2 t) (Gen.iblk0 V c 3 t) (Gen.iblk0 V c 4 t) j
      = target V c (((cfg0.win 5).blk t).view.emb j)
  refine (body_apply _ _ _ _ _ j).trans ?_
  have hj0 : (j 0).val < 8000 := (j 0).isLt
  have hj1 : (j 1).val < 64 := (j 1).isLt
  have ha : Gen.iblk0 V c 0 t (ix2 (j 0) (0 : Fin 1)) = V c main_arg1 (ix2 ((((cfg0.win 5).blk t).view.emb j) 0) (0 : Fin 1)) := by
    show V c main_arg1 (((cfg0.win 0).blk t).view.emb (ix2 (j 0) (0 : Fin 1))) = _
    refine congrArg (V c main_arg1) (funext fun a => Fin.ext ?_)
    match a with
    | ⟨0, _⟩ => show win0_0.index t (0 : Fin 2) * 8000 + 1 * (j 0).val = win0_5.index t (0 : Fin 2) * 8000 + 1 * (j 0).val; omega
    | ⟨1, _⟩ => show win0_0.index t (1 : Fin 2) * 1 + 1 * 0 = 0; omega
  have h1 : (fun k : Fin 64 => Gen.iblk0 V c 1 t (ix2 (0 : Fin 1) k)) = fun k => V c main_arg2 (ix2 (0 : Fin 1) k) := by
    funext k
    show V c main_arg2 (((cfg0.win 1).blk t).view.emb (ix2 (0 : Fin 1) k)) = _
    refine congrArg (V c main_arg2) (funext fun a => Fin.ext ?_)
    match a with
    | ⟨0, _⟩ => show win0_1.index t (0 : Fin 2) * 1 + 1 * 0 = 0; omega
    | ⟨1, _⟩ => show win0_1.index t (1 : Fin 2) * 64 + 1 * k.val = k.val; omega
  have h2 : (fun k : Fin 64 => Gen.iblk0 V c 2 t (ix2 (0 : Fin 1) k)) = fun k => V c main_v0 (ix2 (0 : Fin 1) k) := by
    funext k
    show V c main_v0 (((cfg0.win 2).blk t).view.emb (ix2 (0 : Fin 1) k)) = _
    refine congrArg (V c main_v0) (funext fun a => Fin.ext ?_)
    match a with
    | ⟨0, _⟩ => show win0_2.index t (0 : Fin 2) * 1 + 1 * 0 = 0; omega
    | ⟨1, _⟩ => show win0_2.index t (1 : Fin 2) * 64 + 1 * k.val = k.val; omega
  have h3 : (fun (k j : Fin 64) => Gen.iblk0 V c 3 t (ix2 k j)) = fun k j => V c main_arg4 (ix2 k j) := by
    funext k l
    show V c main_arg4 (((cfg0.win 3).blk t).view.emb (ix2 k l)) = _
    refine congrArg (V c main_arg4) (funext fun a => Fin.ext ?_)
    match a with
    | ⟨0, _⟩ => show win0_3.index t (0 : Fin 2) * 64 + 1 * k.val = k.val; omega
    | ⟨1, _⟩ => show win0_3.index t (1 : Fin 2) * 64 + 1 * l.val = l.val; omega
  have h4 : (fun k : Fin 64 => Gen.iblk0 V c 4 t (ix2 (0 : Fin 1) k)) = fun k => V c main_v1 (ix2 (0 : Fin 1) k) := by
    funext k
    show V c main_v1 (((cfg0.win 4).blk t).view.emb (ix2 (0 : Fin 1) k)) = _
    refine congrArg (V c main_v1) (funext fun a => Fin.ext ?_)
    match a with
    | ⟨0, _⟩ => show win0_4.index t (0 : Fin 2) * 1 + 1 * 0 = 0; omega
    | ⟨1, _⟩ => show win0_4.index t (1 : Fin 2) * 64 + 1 * k.val = k.val; omega
  have hq : (j 1 : Fin 64) = (((cfg0.win 5).blk t).view.emb j) 1 := by
    apply Fin.ext
    show (j 1).val = win0_5.index t (1 : Fin 2) * 64 + 1 * (j 1).val
    omega
  rw [ha, h1, h2, h3, h4, hq]
  rfl

/-- An index of the output array is in point `t`'s block iff each coordinate is in the block's range on its axis. -/
theorem mem_block (t : Fin cfg0.N) (i : S1600000x64.Idx) :
    i ∈ ((cfg0.win 5).blk t).view.set ↔ ∀ a : Fin 2, win0_5.index t a * S8000x64.size a ≤ (i a).val
      ∧ (i a).val < win0_5.index t a * S8000x64.size a + S8000x64.size a := by
  show i ∈ ((View.whole main_v2).slice (win0_5.rect t)).set ↔ _
  rw [View.set_slice_whole, Rect.mem_set_unit]
  exact Iff.rfl

/-- Every row of the output array is in some point's block: row `r` in that of point `r / 8000`. -/
theorem covered (i : S1600000x64.Idx) :
    ∃ t : Fin cfg0.N, (cfg0.win 5).flush t = true ∧ i ∈ ((cfg0.win 5).blk t).view.set := by
  have hi0 : (i 0).val < 1600000 := (i 0).isLt
  have hi1 : (i 1).val < 64 := (i 1).isLt
  have hN : grid0.N = 200 := Gen.N_0
  let t : Fin cfg0.N := ⟨(i 0).val / 8000, by show (i 0).val / 8000 < grid0.N; rw [hN]; omega⟩
  obtain ⟨e50, e51, -⟩ := index_facts t
  have ht : t.val = (i 0).val / 8000 := rfl
  refine ⟨t, Gen.flush0_5 t, ?_⟩
  rw [mem_block]
  intro a
  match a with
  | ⟨0, _⟩ => show win0_5.index t (0 : Fin 2) * 8000 ≤ (i 0).val ∧ (i 0).val < win0_5.index t (0 : Fin 2) * 8000 + 8000; omega
  | ⟨1, _⟩ => show win0_5.index t (1 : Fin 2) * 64 ≤ (i 1).val ∧ (i 1).val < win0_5.index t (1 : Fin 2) * 64 + 64; omega

/-- The output array after the region is the edge array function of the operand arrays as the region finds them. -/
theorem final (c : Dev nD) : (Gen.dat0 (F := Ideal) V c).arrAt 5 cfg0.N = target V c :=
  (Gen.dat0 (F := Ideal) V c).arrAt_eq_of_cover 5 (target V c) (fun t _ => flushed_eq V c t) covered

end Cert.KernelIdeal.EdgeArray

end
-- ==== Proof.KerNode.lean ====
/-
  The node kernel's body at one entry of its output block.

  The body loads a block of 10000 aggregated rows, two 64×64 matrices and two bias rows, and stores
  (SiLU of (block × first matrix + first bias)) × second matrix + second bias. Read at row `p`, column `q`, that is
  the node-row function of row `p` of the block: both products go into a zero accumulator, so each is the plain sum
  over the contracted coordinate; the changes of float format before them are the identity on the extended reals;
  each bias row is spread over the 10000 rows.
-/
import proofs.«118618_j34505767256114_1_alg».proof.Proof.Gen.KernelIdeal.Skeleton
import proofs.«118618_j34505767256114_1_alg».proof.Proof.Spec
import proofs.«118618_j34505767256114_1_alg».proof.Proof.LibMatmul2
import Idealize.ShloMosaic.Lib.ValueLayout
import Idealize.ShloMosaic.PureOps.Ideal.Laws

noncomputable section

namespace Cert.KernelIdeal.NodeBody

open Idealize.ShloMosaic Idealize.ShloMosaic.ValueIdx Cert.KernelIdeal Cert.KernelIdeal.Facts₀ Cert.GnnSpec
open scoped BigOperators

/-- `v · logistic v`, lane by lane, is SiLU of the lane. -/
theorem mul_logistic_apply {s : Shape} (y : FVec Ideal s .f32) (i : s.Idx) : mulf y (logistic y) i = silu (y i) := rfl

/-- The 10000×64 by 64×64 product into a zero accumulator, at an entry. -/
theorem matmul_apply (A : FVec Ideal S10000x64 .bf16) (B : FVec Ideal S64x64 .bf16) (p : Fin 10000) (q : Fin 64) :
    matmul dot_S10000x64_S64x64_S10000x64_1_0_0_1_n_n none A B (constant (F := Ideal) S10000x64 .f32 0x00000000#32) (ix2 p q)
      = ∑ k : Fin 64, A (ix2 p k) * B (ix2 k q) :=
  LibMatmul2.matmul_nn_apply dot_S10000x64_S64x64_S10000x64_1_0_0_1_n_n_wf none A B p q

/-- The hidden layer before its activation, at row `p` and lane `k`: row `p` of the block times column `k` of the
    first matrix, plus the bias. -/
theorem hidden_apply (x0 : Vec Ideal S10000x64 .f32) (x1 : Vec Ideal S64x64 .f32) (x2 : Vec Ideal S1x64 .f32)
    (p : Fin 10000) (k : Fin 64) :
    addf (F := Ideal) (φ := .f32)
        (matmul dot_S10000x64_S64x64_S10000x64_1_0_0_1_n_n none
          (truncf (F := Ideal) (φ := .f32) .bf16 (shapeCast S10000x64 x0 shapeCasts_S10000x64_S10000x64) bitsLt_bf16_f32)
          (truncf (F := Ideal) (φ := .f32) .bf16 x1 bitsLt_bf16_f32) (constant (F := Ideal) S10000x64 .f32 0x00000000#32))
        (broadcastTo S10000x64 (shapeCast S1x64 x2 shapeCasts_S1x64_S1x64) broadcasts_S1x64_S10000x64) (ix2 p k)
      = (∑ l : Fin 64, x0 (ix2 p l) * x1 (ix2 l k)) + x2 (ix2 (0 : Fin 1) k) := by
  rw [shapeCast_self, shapeCast_self]
  exact congrArg₂ (· + ·) (matmul_apply _ _ p k) (broadcastTo_1b_ab_apply x2 broadcasts_S1x64_S10000x64 p k)

/-- The stored value at row `p`, column `q` of the block is the node-row function of row `p` of the loaded block. -/
theorem payload_apply (x0 : Vec Ideal S10000x64 .f32) (x1 : Vec Ideal S64x64 .f32) (x2 : Vec Ideal S1x64 .f32)
    (x3 : Vec Ideal S64x64 .f32) (x4 : Vec Ideal S1x64 .f32) (p : Fin 10000) (q : Fin 64) :
    Gen.k1_pay1 (F := Ideal) x0 x1 x2 x3 x4 (ix2 p q)
      = nodeRow (fun l => x0 (ix2 p l)) (fun l k => x1 (ix2 l k)) (fun k => x2 (ix2 (0 : Fin 1) k))
          (fun k j => x3 (ix2 k j)) (fun k => x4 (ix2 (0 : Fin 1) k)) q := by
  unfold Gen.k1_pay1
  unfold nodeRow
  refine congrArg₂ (· + ·) ?_ ?_
  · refine (matmul_apply _ _ p q).trans (Finset.sum_congr rfl fun k _ => ?_)
    refine congrArg₂ (· * ·) ?_ rfl
    exact (mul_logistic_apply _ _).trans (congrArg silu (hidden_apply x0 x1 x2 p k))
  · rw [shapeCast_self]
    exact broadcastTo_1b_ab_apply x4 broadcasts_S1x64_S10000x64 p q

end Cert.KernelIdeal.NodeBody

end
-- ==== Proof.KerNodeArr.lean ====
/-
  The node kernel's output array after its region, for any contents the region is entered with.

  The grid has 10 points; point `t` reads rows `10000·t … 10000·t + 9999` of the aggregated array and the whole of the
  two matrices and two bias rows, and writes back the same rows of the output. Entry `(r, j)` of what it writes
  depends on row `r` of the aggregated array only, so every block is the restriction of the node array function of
  the operand arrays; the 10 blocks tile the 100000 rows, so the array ends holding that function.
-/
import proofs.«118618_j34505767256114_1_alg».proof.Proof.Gen.KernelIdeal.Frame
import proofs.«118618_j34505767256114_1_alg».proof.Proof.KerNode
import Idealize.ShloMosaic.Lib.Pipeline.Value

set_option maxRecDepth 16384

noncomputable section

namespace Cert.KernelIdeal.NodeArray

open Idealize.ShloMosaic Idealize.ShloMosaic.TcCoe Idealize.ShloMosaic.ValueIdx Idealize.SL.Sem
open Idealize.ShloMosaic.Pipeline (Dat Cfg Window)
open Cert.KernelIdeal Cert.GnnSpec

variable (V : (c : Dev nD) → (b : Ref sig .tc) → Buf (Elt Ideal) ((c : Thread nD τ).loc b))

theorem zeros2 : (![0, 0] : Fin 2 → Nat) = fun _ => 0 := funext fun a => by fin_cases a <;> rfl

/-- The node array function of the operand arrays as the region finds them. -/
abbrev target (c : Dev nD) : S100000x64.Idx → Elt Ideal .f32 :=
  nodeArr (V c main_v7) (fun l k => V c main_arg6 (ix2 l k)) (fun k => V c main_v8 (ix2 (0 : Fin 1) k))
    (fun k j => V c main_arg8 (ix2 k j)) (fun k => V c main_v9 (ix2 (0 : Fin 1) k))

/-- The printed index maps over the grid: the aggregated block and the output block of point `t` are block `t` along
    the rows, every other operand is its whole array. -/
theorem index_facts : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The body's stored value at an index of the block, over any loaded blocks. -/
theorem body_apply (x0 : Vec Ideal S10000x64 .f32) (x1 : Vec Ideal S64x64 .f32) (x2 : Vec Ideal S1x64 .f32)
    (x3 : Vec Ideal S64x64 .f32) (x4 : Vec Ideal S1x64 .f32) (j : S10000x64.Idx) :
    Gen.k1_pay1 (F := Ideal) x0 x1 x2 x3 x4 j
      = nodeRow (fun l => x0 (ix2 (j 0) l)) (fun l k => x1 (ix2 l k)) (fun k => x2 (ix2 (0 : Fin 1) k))
          (fun k j => x3 (ix2 k j)) (fun k => x4 (ix2 (0 : Fin 1) k)) (j 1) :=
  (congrArg (Gen.k1_pay1 (F := Ideal) x0 x1 x2 x3 x4) (eq_ix2 j)).trans
    (Cert.KernelIdeal.NodeBody.payload_apply x0 x1 x2 x3 x4 (j 0) (j 1))

/-- What point `t` writes back is block `t` of the node array function. -/
theorem flushed_eq (c : Dev nD) (t : Fin cfg1.N) :
    (Gen.dat1 (F := Ideal) V c).flushed 5 t = ((cfg1.win 5).blk t).view.read (Elt Ideal) (target V c) := by
  show (cfg1.win 5).cut (grid1.coords t) ((Gen.dat1 (F := Ideal) V c).after 5 t) = _
  rw [Gen.after1_5]
  unfold Gen.out1_5
  rw [View.canon_unit_zero zeros2]
  simp only [View.ld_unit_zero (S := S10000x64) zeros2, View.ld_unit_zero (S := S1x64) zeros2, View.ld_unit_zero (S := S64x64) zeros2]
  obtain ⟨e50, e51, e00, e01, e10, e11, e20, e21, e30, e31, e40, e41⟩ := index_facts t
  funext j
  show Gen.k1_pay1 (F := Ideal) (Gen.iblk1 V c 0 t) (Gen.iblk1 V c 1 t) (Gen.iblk1 V c 2 t) (Gen.iblk1 V c 3 t) (Gen.iblk1 V c 4 t) j
      = target V c (((cfg1.win 5).blk t).view.emb j)
  refine (body_apply _ _ _ _ _ j).trans ?_
  have hj0 : (j 0).val < 10000 := (j 0).isLt
  have hj1 : (j 1).val < 64 := (j 1).isLt
  have ha : (fun l : Fin 64 => Gen.iblk1 V c 0 t (ix2 (j 0) l))
      = fun l => V c main_v7 (ix2 ((((cfg1.win 5).blk t).view.emb j) 0) l) := by
    funext l
    show V c main_v7 (((cfg1.win 0).blk t).view.emb (ix2 (j 0) l)) = _
    refine congrArg (V c main_v7) (funext fun a => Fin.ext ?_)
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 64 + 1 * l.val = l.val; omega
  have h1 : (fun (l k : Fin 64) => Gen.iblk1 V c 1 t (ix2 l k)) = fun l k => V c main_arg6 (ix2 l k) := by
    funext l k
    show V c main_arg6 (((cfg1.win 1).blk t).view.emb (ix2 l k)) = _
    refine congrArg (V c main_arg6) (funext fun a => Fin.ext ?_)
    match a with
    | ⟨0, _⟩ => show win1_1.index t (0 : Fin 2) * 64 + 1 * l.val = l.val; omega
    | ⟨1, _⟩ => show win1_1.index t (1 : Fin 2) * 64 + 1 * k.val = k.val; omega
  have h2 : (fun k : Fin 64 => Gen.iblk1 V c 2 t (ix2 (0 : Fin 1) k)) = fun k => V c main_v8 (ix2 (0 : Fin 1) k) := by
    funext k
    show V c main_v8 (((cfg1.win 2).blk t).view.emb (ix2 (0 : Fin 1) k)) = _
    refine congrArg (V c main_v8) (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  have h3 : (fun (k j : Fin 64) => Gen.iblk1 V c 3 t (ix2 k j)) = fun k j => V c main_arg8 (ix2 k j) := by
    funext k l
    show V c main_arg8 (((cfg1.win 3).blk t).view.emb (ix2 k l)) = _
    refine congrArg (V c main_arg8) (funext fun a => Fin.ext ?_)
    match a with
    | ⟨0, _⟩ => show win1_3.index t (0 : Fin 2) * 64 + 1 * k.val = k.val; omega
    | ⟨1, _⟩ => show win1_3.index t (1 : Fin 2) * 64 + 1 * l.val = l.val; omega
  have h4 : (fun k : Fin 64 => Gen.iblk1 V c 4 t (ix2 (0 : Fin 1) k)) = fun k => V c main_v9 (ix2 (0 : Fin 1) k) := by
    funext k
    show V c main_v9 (((cfg1.win 4).blk t).view.emb (ix2 (0 : Fin 1) k)) = _
    refine congrArg (V c main_v9) (funext fun a => Fin.ext ?_)
    match a with
    | ⟨0, _⟩ => show win1_4.index t (0 : Fin 2) * 1 + 1 * 0 = 0; omega
    | ⟨1, _⟩ => show win1_4.index t (1 : Fin 2) * 64 + 1 * k.val = k.val; omega
  have hq : (j 1 : Fin 64) = (((cfg1.win 5).blk t).view.emb j) 1 := by
    apply Fin.ext
    show (j 1).val = win1_5.index t (1 : Fin 2) * 64 + 1 * (j 1).val
    omega
  rw [ha, h1, h2, h3, h4, hq]
  rfl

/-- An index of the output array is in point `t`'s block iff each coordinate is in the block's range on its axis. -/
theorem mem_block (t : Fin cfg1.N) (i : S100000x64.Idx) :
    i ∈ ((cfg1.win 5).blk t).view.set ↔ ∀ a : Fin 2, win1_5.index t a * S10000x64.size a ≤ (i a).val
      ∧ (i a).val < win1_5.index t a * S10000x64.size a + S10000x64.size a := by
  show i ∈ ((View.whole main_v10).slice (win1_5.rect t)).set ↔ _
  rw [View.set_slice_whole, Rect.mem_set_unit]
  exact Iff.rfl

/-- Every row of the output array is in some point's block: row `r` in that of point `r / 10000`. -/
theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : grid1.N = 10 := Gen.N_1
  let t : Fin cfg1.N := ⟨(i 0).val / 10000, by show (i 0).val / 10000 < grid1.N; rw [hN]; omega⟩
  obtain ⟨e50, e51, -⟩ := index_facts t
  have ht : t.val = (i 0).val / 10000 := rfl
  refine ⟨t, Gen.flush1_5 t, ?_⟩
  rw [mem_block]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- The output array after the region is the node array function of the operand arrays as the region finds them. -/
theorem final (c : Dev nD) : (Gen.dat1 (F := Ideal) V c).arrAt 5 cfg1.N = target V c :=
  (Gen.dat1 (F := Ideal) V c).arrAt_eq_of_cover 5 (target V c) (fun t _ => flushed_eq V c t) covered

end Cert.KernelIdeal.NodeArray

end
-- ==== Proof.KerWhole.lean ====
/-
  The idealized kernel's result as one function of the launch memory.

  Reading the last boundary's contents at the result buffer: it is the node region's output array, the node array
  function of what that region finds — the aggregated array, which the second host stretch computes as the
  scatter-add of the edge region's output array into zeros at the rows the first index row names, the two node
  matrices, and the two biases viewed as one-row matrices. The edge region's output array is the edge array
  function of what it finds: the attributes, the first weight row, the 64×64 matrix, and the two biases viewed as
  one-row matrices by the first host stretch. A 64-vector viewed as a one-row matrix reads at `(0, k)` the vector
  at `k`, and no host operation or region writes an argument, so the whole is a function of the ten arguments.
-/
import proofs.«118618_j34505767256114_1_alg».proof.Proof.Gen.KernelIdeal.Frame
import proofs.«118618_j34505767256114_1_alg».proof.Proof.KerEdgeArr
import proofs.«118618_j34505767256114_1_alg».proof.Proof.KerNodeArr
import Idealize.ShloMosaic.Lib.StableHlo.Run
import Idealize.ShloMosaic.Lib.ValueLayout

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Facts₀ Cert.GnnSpec

/-- The program's result as a function of its ten arguments: the node array function of the scatter-add of the edge
    array function. -/
def whole (a0 : (⟨S2x1600000, .i32⟩ : BufTy).Contents (Elt Ideal)) (a1 : (⟨S1600000x1, .f32⟩ : BufTy).Contents (Elt Ideal))
    (a2 : (⟨S1x64, .f32⟩ : BufTy).Contents (Elt Ideal)) (a3 : (⟨S64, .f32⟩ : BufTy).Contents (Elt Ideal))
    (a4 : (⟨S64x64, .f32⟩ : BufTy).Contents (Elt Ideal)) (a5 : (⟨S64, .f32⟩ : BufTy).Contents (Elt Ideal))
    (a6 : (⟨S64x64, .f32⟩ : BufTy).Contents (Elt Ideal)) (a7 : (⟨S64, .f32⟩ : BufTy).Contents (Elt Ideal))
    (a8 : (⟨S64x64, .f32⟩ : BufTy).Contents (Elt Ideal)) (a9 : (⟨S64, .f32⟩ : BufTy).Contents (Elt Ideal)) :
    (⟨S100000x64, .f32⟩ : BufTy).Contents (Elt Ideal) :=
  nodeArr
    (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0
        (shapeCast S1600000 (extractStridedSlice S1x1600000 ![0, 0] a0 slices_S2x1600000_S1x1600000_0_0) shapeCasts_S1x1600000_S1600000))
      (edgeArr a1 (fun k => a2 (ix2 (0 : Fin 1) k)) (fun k => a3 (ix1 k)) (fun k j => a4 (ix2 k j)) (fun k => a5 (ix1 k))))
    (fun l k => a6 (ix2 l k)) (fun k => a7 (ix1 k)) (fun k j => a8 (ix2 k j)) (fun k => a9 (ix1 k))

variable (m : (ℓ : Loc nD τ sig) → Buf (Elt Ideal) ℓ) (ρ : Dev nD → PrngReg)

/-! ## The arguments the second host stretch and the node region read are as launched: no host operation writes them
    and they are no array of the edge region -/

theorem W2_arg0 (c : Dev nD) : Gen.W2 m ρ c (Proc.devRef .tc main_arg0) = m ((c : Thread nD τ).loc main_arg0) :=
  (Gen.W2_of_ne m ρ c main_arg0 (by decide)).trans (by
    show StableHlo.after Gen.hostOps0 (Gen.W0 m ρ c) (Proc.devRef .tc main_arg0) = _
    after_results <;> rfl)
theorem W2_arg6 (c : Dev nD) : Gen.W2 m ρ c (Proc.devRef .tc main_arg6) = m ((c : Thread nD τ).loc main_arg6) :=
  (Gen.W2_of_ne m ρ c main_arg6 (by decide)).trans (by
    show StableHlo.after Gen.hostOps0 (Gen.W0 m ρ c) (Proc.devRef .tc main_arg6) = _
    after_results <;> rfl)
theorem W2_arg7 (c : Dev nD) : Gen.W2 m ρ c (Proc.devRef .tc main_arg7) = m ((c : Thread nD τ).loc main_arg7) :=
  (Gen.W2_of_ne m ρ c main_arg7 (by decide)).trans (by
    show StableHlo.after Gen.hostOps0 (Gen.W0 m ρ c) (Proc.devRef .tc main_arg7) = _
    after_results <;> rfl)
theorem W2_arg8 (c : Dev nD) : Gen.W2 m ρ c (Proc.devRef .tc main_arg8) = m ((c : Thread nD τ).loc main_arg8) :=
  (Gen.W2_of_ne m ρ c main_arg8 (by decide)).trans (by
    show StableHlo.after Gen.hostOps0 (Gen.W0 m ρ c) (Proc.devRef .tc main_arg8) = _
    after_results <;> rfl)
theorem W2_arg9 (c : Dev nD) : Gen.W2 m ρ c (Proc.devRef .tc main_arg9) = m ((c : Thread nD τ).loc main_arg9) :=
  (Gen.W2_of_ne m ρ c main_arg9 (by decide)).trans (by
    show StableHlo.after Gen.hostOps0 (Gen.W0 m ρ c) (Proc.devRef .tc main_arg9) = _
    after_results <;> rfl)

/-! ## The edge region's output array -/

theorem edge_out (c : Dev nD) :
    Gen.W2 m ρ c (Proc.devRef .tc main_v2)
      = edgeArr (m ((c : Thread nD τ).loc main_arg1)) (fun k => m ((c : Thread nD τ).loc main_arg2) (ix2 (0 : Fin 1) k)) (fun k => m ((c : Thread nD τ).loc main_arg3) (ix1 k))
          (fun k j => m ((c : Thread nD τ).loc main_arg4) (ix2 k j)) (fun k => m ((c : Thread nD τ).loc main_arg5) (ix1 k)) := by
  refine ((Gen.W2_arr m ρ c 5).trans (Cert.KernelIdeal.EdgeArray.final (Gen.V1 m ρ) c)).trans ?_
  have a1 : Gen.V1 m ρ c main_arg1 = m ((c : Thread nD τ).loc main_arg1) := by
    show StableHlo.after Gen.hostOps0 (Gen.W0 m ρ c) (Proc.devRef .tc main_arg1) = _
    after_results <;> rfl
  have a2 : Gen.V1 m ρ c main_arg2 = m ((c : Thread nD τ).loc main_arg2) := by
    show StableHlo.after Gen.hostOps0 (Gen.W0 m ρ c) (Proc.devRef .tc main_arg2) = _
    after_results <;> rfl
  have a4 : Gen.V1 m ρ c main_arg4 = m ((c : Thread nD τ).loc main_arg4) := by
    show StableHlo.after Gen.hostOps0 (Gen.W0 m ρ c) (Proc.devRef .tc main_arg4) = _
    after_results <;> rfl
  have v0 : (Gen.V1 m ρ c main_v0 : S1x64.Idx → Elt Ideal .f32) = shapeCast S1x64 (m ((c : Thread nD τ).loc main_arg3)) shapeCasts_S64_S1x64 := by
    show StableHlo.after Gen.hostOps0 (Gen.W0 m ρ c) (Proc.devRef .tc main_v0) = _
    after_results <;> rfl
  have v1 : (Gen.V1 m ρ c main_v1 : S1x64.Idx → Elt Ideal .f32) = shapeCast S1x64 (m ((c : Thread nD τ).loc main_arg5)) shapeCasts_S64_S1x64 := by
    show StableHlo.after Gen.hostOps0 (Gen.W0 m ρ c) (Proc.devRef .tc main_v1) = _
    after_results <;> rfl
  show edgeArr (Gen.V1 m ρ c main_arg1) (fun k => Gen.V1 m ρ c main_arg2 (ix2 (0 : Fin 1) k))
      (fun k => Gen.V1 m ρ c main_v0 (ix2 (0 : Fin 1) k)) (fun k j => Gen.V1 m ρ c main_arg4 (ix2 k j))
      (fun k => Gen.V1 m ρ c main_v1 (ix2 (0 : Fin 1) k)) = _
  rw [a1, a2, a4, v0, v1]
  simp only [shapeCast_a_1a_apply]

/-! ## The result -/

theorem result_eq (c : Dev nD) :
    Gen.W4 m ρ c (Proc.devRef .tc main_v10)
      = whole (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) (m ((c : Thread nD τ).loc main_arg9)) := by
  refine ((Gen.W4_arr m ρ c 5).trans (Cert.KernelIdeal.NodeArray.final (Gen.V3 m ρ) c)).trans ?_
  have s7 : (Gen.V3 m ρ c main_v7 : S100000x64.Idx → Elt Ideal .f32)
      = Host.scatterAdd (F := Ideal) scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0
            (shapeCast S1600000 (extractStridedSlice S1x1600000 ![0, 0] (Gen.W2 m ρ c (Proc.devRef .tc main_arg0)) slices_S2x1600000_S1x1600000_0_0) shapeCasts_S1x1600000_S1600000))
          (Gen.W2 m ρ c (Proc.devRef .tc main_v2)) := by
    show StableHlo.after Gen.hostOps1 (Gen.W2 m ρ c) (Proc.devRef .tc main_v7) = _
    after_results <;> rfl
  have s8 : (Gen.V3 m ρ c main_v8 : S1x64.Idx → Elt Ideal .f32)
      = shapeCast S1x64 (Gen.W2 m ρ c (Proc.devRef .tc main_arg7)) shapeCasts_S64_S1x64 := by
    show StableHlo.after Gen.hostOps1 (Gen.W2 m ρ c) (Proc.devRef .tc main_v8) = _
    after_results <;> rfl
  have s9 : (Gen.V3 m ρ c main_v9 : S1x64.Idx → Elt Ideal .f32)
      = shapeCast S1x64 (Gen.W2 m ρ c (Proc.devRef .tc main_arg9)) shapeCasts_S64_S1x64 := by
    show StableHlo.after Gen.hostOps1 (Gen.W2 m ρ c) (Proc.devRef .tc main_v9) = _
    after_results <;> rfl
  have s6 : Gen.V3 m ρ c main_arg6 = Gen.W2 m ρ c (Proc.devRef .tc main_arg6) := by
    show StableHlo.after Gen.hostOps1 (Gen.W2 m ρ c) (Proc.devRef .tc main_arg6) = _
    after_results <;> rfl
  have s88 : Gen.V3 m ρ c main_arg8 = Gen.W2 m ρ c (Proc.devRef .tc main_arg8) := by
    show StableHlo.after Gen.hostOps1 (Gen.W2 m ρ c) (Proc.devRef .tc main_arg8) = _
    after_results <;> rfl
  show nodeArr (Gen.V3 m ρ c main_v7) (fun l k => Gen.V3 m ρ c main_arg6 (ix2 l k)) (fun k => Gen.V3 m ρ c main_v8 (ix2 (0 : Fin 1) k))
      (fun k j => Gen.V3 m ρ c main_arg8 (ix2 k j)) (fun k => Gen.V3 m ρ c main_v9 (ix2 (0 : Fin 1) k)) = _
  rw [s7, s8, s9, s6, s88, W2_arg0, W2_arg6, W2_arg7, W2_arg8, W2_arg9, edge_out]
  unfold whole
  simp only [shapeCast_a_1a_apply]

end Cert.KernelIdeal.Whole

end
-- ==== Proof.RefEdge.lean ====
/-
  The reference's edge half, read at an entry.

  The reference computes the first layer as a matrix product with ONE contracted coordinate (a one-term sum: the
  attribute times the weight), adds the bias spread over the rows, and applies SiLU spelled out as
  `x · (1 / (1 + e^(-x)))`; the second layer is a 64-term matrix product, the bias, and the same SiLU. The word of
  `1.0` is the real one, and `1 / (1 + e^(-x))` is the logistic function on every extended real, so entry `(p, q)`
  of the result is the edge-row function of the attribute of edge `p`.
-/
import proofs.«118618_j34505767256114_1_alg».proof.Proof.Gen.ReferenceIdeal.Read
import proofs.«118618_j34505767256114_1_alg».proof.Proof.Spec
import Idealize.ShloMosaic.Lib.IdealHost

noncomputable section

namespace Cert.ReferenceIdeal.EdgeStage

open Idealize.ShloMosaic Idealize.ShloMosaic.ValueIdx Cert.ReferenceIdeal Cert.ReferenceIdeal.Read Cert.GnnSpec
open scoped BigOperators

/-- The host's spelling of SiLU, `x · (1 / (1 + e^(-x)))` with the word of `1.0`, is SiLU. -/
theorem host_silu (y : Ideal .f32) :
    FloatOps.mulf y (FloatOps.hostDivf (FloatOps.ofBits .f32 0x3F800000#32)
      (FloatOps.addf (FloatOps.ofBits .f32 0x3F800000#32) (FloatOps.hostUnary .exp (FloatOps.hostNegf y)))) = silu y := by
  have h1 : (FloatOps.ofBits .f32 0x3F800000#32 : Ideal .f32) = 1 := Ideal.ofBits_one_f32
  rw [h1]
  rfl

/-- The first layer before its activation, at edge `p` and lane `k`. -/
theorem layer1_apply (x1 : (⟨S1600000x1, .f32⟩ : BufTy).Contents (Elt Ideal)) (x2 : (⟨S1x64, .f32⟩ : BufTy).Contents (Elt Ideal)) (x3 : (⟨S64, .f32⟩ : BufTy).Contents (Elt Ideal)) (p : Fin 1600000) (k : Fin 64) :
    val_main_v3 (F := Ideal) x1 x2 x3 (ix2 p k) = x1 (ix2 p (0 : Fin 1)) * x2 (ix2 (0 : Fin 1) k) + x3 (ix1 k) := by
  rw [val_main_v3_apply, val_main_v0_apply, val_main_v2_apply, val_main_v1_apply, Fin.sum_univ_one]
  have e0 : lidx_main_v0 (ix2 p k) (0 : Fin 1) = ix2 p (0 : Fin 1) :=
    funext fun a => Fin.ext (by match a with | ⟨0, _⟩ => rfl | ⟨1, _⟩ => rfl)
  have e1 : ridx_main_v0 (ix2 p k) (0 : Fin 1) = ix2 (0 : Fin 1) k :=
    funext fun a => Fin.ext (by match a with | ⟨0, _⟩ => rfl | ⟨1, _⟩ => rfl)
  have e2 : idx_main_v1 (idx_main_v2 (ix2 p k)) = ix1 k :=
    funext fun a => Fin.ext (by match a with | ⟨0, _⟩ => rfl)
  rw [e0, e1, e2]
  rfl

/-- The first activation is SiLU of the first layer. -/
theorem act1_apply (x1 : (⟨S1600000x1, .f32⟩ : BufTy).Contents (Elt Ideal)) (x2 : (⟨S1x64, .f32⟩ : BufTy).Contents (Elt Ideal)) (x3 : (⟨S64, .f32⟩ : BufTy).Contents (Elt Ideal)) (i : S1600000x64.Idx) :
    val_main_v4 (F := Ideal) x1 x2 x3 i = silu (val_main_v3 (F := Ideal) x1 x2 x3 i) := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply]
  exact host_silu _

/-- The second layer before its activation, at edge `p` and lane `q`. -/
theorem layer2_apply (x1 : (⟨S1600000x1, .f32⟩ : BufTy).Contents (Elt Ideal)) (x2 : (⟨S1x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal))
    (p : Fin 1600000) (q : Fin 64) :
    val_main_v8 (F := Ideal) x1 x2 x3 x4 x5 (ix2 p q)
      = (∑ k : Fin 64, silu (x1 (ix2 p (0 : Fin 1)) * x2 (ix2 (0 : Fin 1) k) + x3 (ix1 k)) * x4 (ix2 k q)) + x5 (ix1 q) := by
  rw [val_main_v8_apply, val_main_v5_apply, val_main_v7_apply, val_main_v6_apply]
  have e2 : idx_main_v6 (idx_main_v7 (ix2 p q)) = ix1 q :=
    funext fun a => Fin.ext (by match a with | ⟨0, _⟩ => rfl)
  rw [e2]
  refine congrArg₂ (· + ·) (Finset.sum_congr rfl fun k _ => ?_) rfl
  have el : lidx_main_v5 (ix2 p q) k = ix2 p k :=
    funext fun a => Fin.ext (by match a with | ⟨0, _⟩ => rfl | ⟨1, _⟩ => rfl)
  have er : ridx_main_v5 (ix2 p q) k = ix2 k q :=
    funext fun a => Fin.ext (by match a with | ⟨0, _⟩ => rfl | ⟨1, _⟩ => rfl)
  rw [el, er, act1_apply, layer1_apply]

/-- The second activation is SiLU of the second layer. -/
theorem act2_apply (x1 : (⟨S1600000x1, .f32⟩ : BufTy).Contents (Elt Ideal)) (x2 : (⟨S1x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal))
    (i : S1600000x64.Idx) :
    val_main_v9 (F := Ideal) x1 x2 x3 x4 x5 i = silu (val_main_v8 (F := Ideal) x1 x2 x3 x4 x5 i) := by
  rw [val_main_v9_apply, val_main_call1_v5_apply, val_main_call1_v4_apply, val_main_call1_cst_0_apply,
    val_main_call1_v3_apply, val_main_call1_v2_apply, val_main_call1_cst_apply, val_main_call1_v1_apply,
    val_main_call1_v0_apply]
  exact host_silu _

/-- The reference's edge features are the edge array function of its arguments. -/
theorem edge_eq (x1 : (⟨S1600000x1, .f32⟩ : BufTy).Contents (Elt Ideal)) (x2 : (⟨S1x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) :
    val_main_v9 (F := Ideal) x1 x2 x3 x4 x5
      = edgeArr x1 (fun k => x2 (ix2 (0 : Fin 1) k)) (fun k => x3 (ix1 k)) (fun k j => x4 (ix2 k j)) (fun k => x5 (ix1 k)) := by
  funext i
  obtain ⟨p, q, rfl⟩ : ∃ (p : Fin 1600000) (q : Fin 64), i = ix2 p q := ⟨i 0, i 1, eq_ix2 i⟩
  rw [act2_apply, layer2_apply]
  rfl

end Cert.ReferenceIdeal.EdgeStage

end
-- ==== Proof.RefNode.lean ====
/-
  The reference's node half, read at an entry, over the aggregated array kept whole.

  After the scatter-add (whose result is not opened here: both programs apply the same one) the reference multiplies
  the aggregated array by the third matrix, adds the bias spread over the rows, applies SiLU spelled out as
  `x · (1 / (1 + e^(-x)))`, multiplies by the fourth matrix and adds the last bias. Entry `(p, q)` of the result is
  the node-row function of row `p` of the aggregated array.
-/
import proofs.«118618_j34505767256114_1_alg».proof.Proof.Gen.ReferenceIdeal.Read
import proofs.«118618_j34505767256114_1_alg».proof.Proof.Spec
import proofs.«118618_j34505767256114_1_alg».proof.Proof.RefEdge

noncomputable section

namespace Cert.ReferenceIdeal.NodeStage

open Idealize.ShloMosaic Idealize.ShloMosaic.ValueIdx Cert.ReferenceIdeal Cert.ReferenceIdeal.Read Cert.GnnSpec
open scoped BigOperators

/-- The hidden layer before its activation, at node `p` and lane `k`. -/
theorem hidden_apply (x0 : (⟨S2x1600000, .i32⟩ : BufTy).Contents (Elt Ideal)) (x1 : (⟨S1600000x1, .f32⟩ : BufTy).Contents (Elt Ideal)) (x2 : (⟨S1x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal)) (p : Fin 100000) (k : Fin 64) :
    val_main_v18 (F := Ideal) x0 x1 x2 x3 x4 x5 x6 x7 (ix2 p k)
      = (∑ l : Fin 64, val_main_v14 (F := Ideal) x0 x1 x2 x3 x4 x5 (ix2 p l) * x6 (ix2 l k)) + x7 (ix1 k) := by
  rw [val_main_v18_apply, val_main_v15_apply, val_main_v17_apply, val_main_v16_apply]
  have e2 : idx_main_v16 (idx_main_v17 (ix2 p k)) = ix1 k :=
    funext fun a => Fin.ext (by match a with | ⟨0, _⟩ => rfl)
  rw [e2]
  refine congrArg₂ (· + ·) (Finset.sum_congr rfl fun l _ => ?_) rfl
  have el : lidx_main_v15 (ix2 p k) l = ix2 p l :=
    funext fun a => Fin.ext (by match a with | ⟨0, _⟩ => rfl | ⟨1, _⟩ => rfl)
  have er : ridx_main_v15 (ix2 p k) l = ix2 l k :=
    funext fun a => Fin.ext (by match a with | ⟨0, _⟩ => rfl | ⟨1, _⟩ => rfl)
  rw [el, er]

/-- The activation is SiLU of the hidden layer. -/
theorem act_apply (x0 : (⟨S2x1600000, .i32⟩ : BufTy).Contents (Elt Ideal)) (x1 : (⟨S1600000x1, .f32⟩ : BufTy).Contents (Elt Ideal)) (x2 : (⟨S1x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal)) (i : S100000x64.Idx) :
    val_main_v19 (F := Ideal) x0 x1 x2 x3 x4 x5 x6 x7 i = silu (val_main_v18 (F := Ideal) x0 x1 x2 x3 x4 x5 x6 x7 i) := by
  rw [val_main_v19_apply, val_main_call2_v5_apply, val_main_call2_v4_apply, val_main_call2_cst_0_apply,
    val_main_call2_v3_apply, val_main_call2_v2_apply, val_main_call2_cst_apply, val_main_call2_v1_apply,
    val_main_call2_v0_apply]
  exact Cert.ReferenceIdeal.EdgeStage.host_silu _

/-- The output layer at node `p` and lane `q`. -/
theorem out_apply (x0 : (⟨S2x1600000, .i32⟩ : BufTy).Contents (Elt Ideal)) (x1 : (⟨S1600000x1, .f32⟩ : BufTy).Contents (Elt Ideal)) (x2 : (⟨S1x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (p : Fin 100000) (q : Fin 64) :
    val_main_v23 (F := Ideal) x0 x1 x2 x3 x4 x5 x6 x7 x8 x9 (ix2 p q)
      = (∑ k : Fin 64, val_main_v19 (F := Ideal) x0 x1 x2 x3 x4 x5 x6 x7 (ix2 p k) * x8 (ix2 k q)) + x9 (ix1 q) := by
  rw [val_main_v23_apply, val_main_v20_apply, val_main_v22_apply, val_main_v21_apply]
  have e2 : idx_main_v21 (idx_main_v22 (ix2 p q)) = ix1 q :=
    funext fun a => Fin.ext (by match a with | ⟨0, _⟩ => rfl)
  rw [e2]
  refine congrArg₂ (· + ·) (Finset.sum_congr rfl fun k _ => ?_) rfl
  have el : lidx_main_v20 (ix2 p q) k = ix2 p k :=
    funext fun a => Fin.ext (by match a with | ⟨0, _⟩ => rfl | ⟨1, _⟩ => rfl)
  have er : ridx_main_v20 (ix2 p q) k = ix2 k q :=
    funext fun a => Fin.ext (by match a with | ⟨0, _⟩ => rfl | ⟨1, _⟩ => rfl)
  rw [el, er]

/-- The reference's result is the node array function of the aggregated array and the last four arguments. -/
theorem node_eq (x0 : (⟨S2x1600000, .i32⟩ : BufTy).Contents (Elt Ideal)) (x1 : (⟨S1600000x1, .f32⟩ : BufTy).Contents (Elt Ideal)) (x2 : (⟨S1x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) :
    val_main_v23 (F := Ideal) x0 x1 x2 x3 x4 x5 x6 x7 x8 x9
      = nodeArr (val_main_v14 (F := Ideal) x0 x1 x2 x3 x4 x5) (fun l k => x6 (ix2 l k)) (fun k => x7 (ix1 k))
          (fun k j => x8 (ix2 k j)) (fun k => x9 (ix1 k)) := by
  funext i
  obtain ⟨p, q, rfl⟩ : ∃ (p : Fin 100000) (q : Fin 64), i = ix2 p q := ⟨i 0, i 1, eq_ix2 i⟩
  rw [out_apply, nodeArr_ix2]
  unfold nodeRow
  refine congrArg₂ (· + ·) (Finset.sum_congr rfl fun k _ => ?_) rfl
  rw [act_apply, hidden_apply]

end Cert.ReferenceIdeal.NodeStage

end
-- ==== Proof.lean ====
/-
  Both programs compute, on the extended reals, a message-passing layer: every edge's attribute goes through a
  two-layer perceptron with SiLU activations; the edge features are added up per source node (a scatter-add into
  zeros at the rows the first index row names); every node's sum goes through a second perceptron (one SiLU, no
  activation at the end).

  The kernel runs the edge perceptron and the node perceptron as two tiled kernel regions with the scatter-add
  between them on the host; the reference is one host program. They differ in how the same numbers are spelt:
  the kernel's first layer is a product of an attribute column and a weight row spread over a tile, the
  reference's a matrix product with one contracted coordinate (a one-term sum); the kernel's matrix products go
  through a narrower float format (the identity on the extended reals) into a zero accumulator, the reference's are
  plain products; the kernel's SiLU uses the logistic operation, the reference's spells `1 / (1 + e^(-x))`, the same
  function of every extended real; the kernel reshapes a bias to one row and spreads it inside the body, the
  reference spreads it on the host. The scatter-add is the same operation of equal operands on both sides and is
  never opened. No step uses that the inputs are finite.

  `Cert.KernelIdeal.Whole.whole` is the common value: the kernel's run ends with its result buffer holding it
  (the run with the result named, and the fold read back), the reference's run with its result term, which is the
  same function of arguments that agree.
-/
import proofs.«118618_j34505767256114_1_alg».proof.Defs
import proofs.«118618_j34505767256114_1_alg».proof.Proof.Gen.Kernel
import proofs.«118618_j34505767256114_1_alg».proof.Proof.Gen.Kernel.Frame
import proofs.«118618_j34505767256114_1_alg».proof.Proof.Gen.KernelIdeal
import proofs.«118618_j34505767256114_1_alg».proof.Proof.Gen.KernelIdeal.Frame
import proofs.«118618_j34505767256114_1_alg».proof.Proof.Gen.ReferenceIdeal
import proofs.«118618_j34505767256114_1_alg».proof.Proof.Gen.Pre_finite_inputs
import proofs.«118618_j34505767256114_1_alg».proof.Proof.Gen.ReferenceIdeal.Run
import proofs.«118618_j34505767256114_1_alg».proof.Proof.Gen.ReferenceIdeal.Read
import proofs.«118618_j34505767256114_1_alg».proof.Proof.KerRun
import proofs.«118618_j34505767256114_1_alg».proof.Proof.KerWhole
import proofs.«118618_j34505767256114_1_alg».proof.Proof.RefEdge
import proofs.«118618_j34505767256114_1_alg».proof.Proof.RefNode
import Idealize.ShloMosaic.Adequacy
import Idealize.ShloMosaic.Init

set_option maxRecDepth 16384

noncomputable section

namespace Cert.Proof

open Idealize.ShloMosaic Idealize.ShloMosaic.TcCoe Idealize.SL.Sem

/-- The reference's result, as a function of its arguments, is the common value: its node half over the
    scatter-add of its edge half, the scatter-add's other operands spelt as the kernel's host stretch spells them. -/
theorem ref_whole (x0 : (⟨Cert.ReferenceIdeal.S2x1600000, .i32⟩ : BufTy).Contents (Elt Ideal)) (x1 : (⟨Cert.ReferenceIdeal.S1600000x1, .f32⟩ : BufTy).Contents (Elt Ideal)) (x2 : (⟨Cert.ReferenceIdeal.S1x64, .f32⟩ : BufTy).Contents (Elt Ideal))
    (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal))
    (x7 : (⟨Cert.ReferenceIdeal.S64, .f32⟩ : BufTy).Contents (Elt Ideal)) (x8 : (⟨Cert.ReferenceIdeal.S64x64, .f32⟩ : BufTy).Contents (Elt Ideal)) (x9 : (⟨Cert.ReferenceIdeal.S64, .f32⟩ : BufTy).Contents (Elt Ideal)) :
    Cert.ReferenceIdeal.Read.val_main_v23 (F := Ideal) x0 x1 x2 x3 x4 x5 x6 x7 x8 x9
      = Cert.KernelIdeal.Whole.whole x0 x1 x2 x3 x4 x5 x6 x7 x8 x9 := by
  rw [Cert.ReferenceIdeal.NodeStage.node_eq]
  unfold Cert.KernelIdeal.Whole.whole Cert.ReferenceIdeal.Read.val_main_v14
  rw [Cert.ReferenceIdeal.EdgeStage.edge_eq]
  rfl

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the common value of arguments that agree. -/
theorem algebraic : Cert.algebraic_KernelIdeal_ReferenceIdeal := by
  intro m ρ m' ρ' _ hagree
  have hk := (θ_run Cert.KernelIdeal.defs _ _).mono
    (fun r h (c : Dev Cert.KernelIdeal.nD) => (⟨(h c).1.trans (Cert.KernelIdeal.Whole.result_eq m ρ c), (h c).2⟩ :
      r.2.mem ((c.tc : Thread Cert.KernelIdeal.nD Cert.KernelIdeal.τ).loc Cert.KernelIdeal.main_v10)
          = Cert.KernelIdeal.Whole.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) ∧ _))
    (Cert.KernelIdeal.ValueRun.run_named (F := Ideal) m ρ)
  refine ⟨_, hk, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v23_eq, ref_whole]
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
